-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x100 : Shape := ⟨2, ![262144, 100]⟩
abbrev S262144 : Shape := ⟨1, ![262144]⟩
abbrev S_ : Shape := ⟨0, ![]⟩

class Facts : Prop where
  bcast_S_S262144x100 : S_.BroadcastsInDim S262144x100 (![] : Fin 0 → Fin S262144x100.rank)
  reducesTo_S262144x100_S_d0_1 : S262144x100.ReducesTo [0, 1] S_
  h_S_ : 0 < S_.numel

variable [Facts]

def fn {F : FTy → Type} [FloatOps F] (main_arg0 : FVec F S262144x100 .f32) (main_arg1 : IVec S262144 32) : IVec S_ 1 :=
  let main_v0 : FVec F S262144x100 .f32 := Host.absf main_arg0
  let main_cst : FVec F S_ .f32 := constant S_ .f32 0x7F800000#32
  let main_v1 : FVec F S262144x100 .f32 := broadcastInDim S262144x100 ![] bcast_S_S262144x100 main_cst
  let main_v2 : IVec S262144x100 1 := cmpf .olt main_v0 main_v1
  let main_c : IVec S_ 1 := constantI S_ 1 1#1
  let main_v3 : IVec S_ 1 := (fun x v => Host.reduce IntOp.andi x v reducesTo_S262144x100_S_d0_1 h_S_) main_v2 main_c
  main_v3
-- ==== Kernel.lean ====
abbrev S262144x100 : Shape := ⟨2, ![262144, 100]⟩
abbrev S262144 : Shape := ⟨1, ![262144]⟩
abbrev S16x128 : Shape := ⟨2, ![16, 128]⟩
abbrev S4096x100 : Shape := ⟨2, ![4096, 100]⟩
abbrev S4096 : Shape := ⟨1, ![4096]⟩
abbrev S8x128 : Shape := ⟨2, ![8, 128]⟩
abbrev S4096x1 : Shape := ⟨2, ![4096, 1]⟩
abbrev S1 : Shape := ⟨1, ![1]⟩
abbrev S1x1 : Shape := ⟨2, ![1, 1]⟩
abbrev S_ : Shape := ⟨0, ![]⟩

abbrev nBuf : Space → Nat
  | .hbm => 7
  | .vmem => 6
  | .smem => 0
  | _ => 0

abbrev bufTy : (tb : Table) → Fin (tcTables nBuf tb) → BufTy
  | .hbm, ⟨0, _⟩ => ⟨S262144x100, .f32⟩
  | .hbm, ⟨1, _⟩ => ⟨S262144, .i32⟩
  | .hbm, ⟨2, _⟩ => ⟨S16x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S4096x100, .f32⟩
  | .local _ .vmem, ⟨1, _⟩ => ⟨S4096x100, .f32⟩
  | .local _ .vmem, ⟨2, _⟩ => ⟨S4096, .i32⟩
  | .local _ .vmem, ⟨3, _⟩ => ⟨S4096, .i32⟩
  | .local _ .vmem, ⟨4, _⟩ => ⟨S8x128, .f32⟩
  | .local _ .vmem, ⟨5, _⟩ => ⟨S8x128, .f32⟩
  | _, _ => ⟨S262144x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 1 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  ![v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S4096x100_S4096x100_0_0 : ∀ a, (![0, 0] : Fin 2 → Nat) a + S4096x100.size a ≤ S4096x100.size a
  h_S4096x100 : 0 < S4096x100.numel
  inb_S4096_S4096_0 : ∀ a, (![0] : Fin 1 → Nat) a + S4096.size a ≤ S4096.size a
  h_S4096 : 0 < S4096.numel
  shapeCasts_S4096_S4096x1 : S4096.ShapeCasts S4096x1
  iota_S4096x100_d1_w32 : S4096x100.Iotas .tc 32 [1]
  broadcasts_S4096x1_S4096x100 : S4096x1.Broadcasts S4096x100
  reduces_S4096x100_S4096 : S4096x100.Reduces [1] S4096
  reduces_S4096x1_S1 : S4096x1.Reduces [0] S1
  shapeCasts_S1_S1x1 : S1.ShapeCasts S1x1
  inb_S8x128_S8x128_0_0 : ∀ a, (![0, 0] : Fin 2 → Nat) a + S8x128.size a ≤ S8x128.size a
  h_S8x128 : 0 < S8x128.numel
  inb_S8x128_S1x1_0_0 : ∀ a, (![0, 0] : Fin 2 → Nat) a + S1x1.size a ≤ S8x128.size a
  h_S1x1 : 0 < S1x1.numel
  shapeCasts_S1x1_S1x1 : S1x1.ShapeCasts S1x1
  reducesTo_S16x128_S_d0_1 : S16x128.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x100.size a ≤ S262144x100.size a
  hwx0_0 : ∀ i : grid0.Coords, EltTy.bits .f32 = 32 ∨ (Rect.block (s := S262144x100) S4096x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S262144.size a
  hwx0_1 : ∀ i : grid0.Coords, EltTy.bits .i32 = 32 ∨ (Rect.block (s := S262144) S4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_arg0) S4096x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S262144x100 : Shape := ⟨2, ![262144, 100]⟩
abbrev S262144 : Shape := ⟨1, ![262144]⟩
abbrev S262144x1 : Shape := ⟨2, ![262144, 1]⟩
abbrev S100 : Shape := ⟨1, ![100]⟩
abbrev S1x100 : Shape := ⟨2, ![1, 100]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S262144x100, .f32⟩
  | .hbm, ⟨1, _⟩ => ⟨S262144, .i32⟩
  | .hbm, ⟨2, _⟩ => ⟨S262144x1, .i32⟩
  | .hbm, ⟨3, _⟩ => ⟨S100, .i32⟩
  | .hbm, ⟨4, _⟩ => ⟨S1x100, .i32⟩
  | .hbm, ⟨5, _⟩ => ⟨S262144x100, .i32⟩
  | .hbm, ⟨6, _⟩ => ⟨S262144x100, .i32⟩
  | .hbm, ⟨7, _⟩ => ⟨S262144x100, .i1⟩
  | .hbm, ⟨8, _⟩ => ⟨S_, .f32⟩
  | .hbm, ⟨9, _⟩ => ⟨S262144x100, .f32⟩
  | .hbm, ⟨10, _⟩ => ⟨S262144x100, .f32⟩
  | .hbm, ⟨11, _⟩ => ⟨S_, .f32⟩
  | .hbm, ⟨12, _⟩ => ⟨S262144x100, .f32⟩
  | .hbm, ⟨13, _⟩ => ⟨S262144x100, .f32⟩
  | .hbm, ⟨14, _⟩ => ⟨S262144x100, .f32⟩
  | .hbm, ⟨15, _⟩ => ⟨S_, .f32⟩
  | .hbm, ⟨16, _⟩ => ⟨S262144x100, .f32⟩
  | .hbm, ⟨17, _⟩ => ⟨S262144x100, .f32⟩
  | .hbm, ⟨18, _⟩ => ⟨S262144x100, .f32⟩
  | .hbm, ⟨19, _⟩ => ⟨S_, .f32⟩
  | .hbm, ⟨20, _⟩ => ⟨S262144x100, .f32⟩
  | .hbm, ⟨21, _⟩ => ⟨S262144x100, .f32⟩
  | .hbm, ⟨22, _⟩ => ⟨S262144x100, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | _, _ => ⟨S262144x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S262144_S262144x1_0 : S262144.BroadcastsInDim S262144x1 (![0] : Fin 1 → Fin S262144x1.rank)
  bcast_S100_S1x100_1 : S100.BroadcastsInDim S1x100 (![1] : Fin 1 → Fin S1x100.rank)
  bcast_S262144x1_S262144x100_0_1 : S262144x1.BroadcastsInDim S262144x100 (![0, 1] : Fin 2 → Fin S262144x100.rank)
  bcast_S1x100_S262144x100_0_1 : S1x100.BroadcastsInDim S262144x100 (![0, 1] : Fin 2 → Fin S262144x100.rank)
  bcast_S_S262144x100 : S_.BroadcastsInDim S262144x100 (![] : Fin 0 → Fin S262144x100.rank)
  reducesTo_S262144x100_S_d0_1 : S262144x100.ReducesTo [0, 1] S_
  h_S_ : 0 < S_.numel

variable [Facts₀]

class Facts : Prop extends Facts₀ where

variable [Facts]
-- ==== Proof.BlockStep.lean ====
/-
  One grid point's effect on the kernel's [8,128] output block, at any float instance.

  The body computes one number from the point's two input blocks, reads the block's corner cell (row 0, lane 0),
  adds the number to it and writes the cell back; at the first point of each row of the grid it first stores the
  zero block. So after a point the block is the block before it (or the zero block) with its corner cell replaced,
  every other cell kept: `step`. The two lemmas read the stores each control case of the body leaves.
-/
import proofs.«107347_j22187801051754_2_alg».proof.Proof.Gen.KernelIdeal.Frame
import Idealize.ShloMosaic.Lib.Pipeline.Value
import Idealize.ShloMosaic.Lib.WritesUnit
import Idealize.ShloMosaic.Lib.ValueIdx
import Idealize.ShloMosaic.Lib.Tactic

noncomputable section

open Idealize.ShloMosaic Idealize.ShloMosaic.TcCoe Idealize.SL.Sem

namespace Cert.KernelIdeal.Margin

open Cert.KernelIdeal Cert.KernelIdeal.Gen Idealize.ShloMosaic.ValueIdx

variable {F : FTy → Type} [FloatOps F]

theorem zeros2 : (![0, 0] : Fin 2 → Nat) = fun _ => 0 := funext fun a => by fin_cases a <;> rfl
theorem zeros1 : (![0] : Fin 1 → Nat) = fun _ => 0 := funext fun a => by fin_cases a; rfl

/-- The output block's corner: the [1,1] rectangle at row 0, lane 0, the one cell the body accumulates into. -/
abbrev corner : Rect S8x128 := Rect.unit (s := S8x128) ![0, 0] S1x1.size inb_S8x128_S1x1_0_0

/-- The block `acc` with its corner cell replaced by the one entry of `b`. -/
def bump (acc : Vec F S8x128 .f32) (b : Vec F S1x1 .f32) : Vec F S8x128 .f32 :=
  fun y => if (y 0).val = 0 ∧ (y 1).val = 0 then b (ix2 0 0) else acc y

/-- One step of the accumulation: from the block `acc`, the body reads the corner cell, adds the sum of the terms of
    the point's input blocks (the payload `k0_pay2`) and writes the corner cell back; every other cell is kept. -/
def step (acc : Vec F S8x128 .f32) (x0 : Vec F S4096x100 .f32) (x1 : Vec F S4096 .i32) : Vec F S8x128 .f32 :=
  bump acc (k0_pay2 x0 x1 (View.ld acc corner))

/-- An index of the block that is not the corner has a positive coordinate. -/
theorem off_corner (y : S8x128.Idx) (hy : ¬((y 0).val = 0 ∧ (y 1).val = 0)) : ∃ a : Fin 2, 0 < (y a).val := by
  rcases Nat.eq_zero_or_pos (y 0).val with h0 | h0
  · rcases Nat.eq_zero_or_pos (y 1).val with h1 | h1
    · exact absurd ⟨h0, h1⟩ hy
    · exact ⟨1, h1⟩
  · exact ⟨0, h0⟩

/-- A point that is not first in its row of the grid: the block held `xo`, the one store is the corner's, so the block
    ends at `step xo` of the input blocks. -/
theorem after_carry (c : Dev nD) (i : grid0.Coords) (a2 : Memref sig .tc .vmem S4096x100 .f32) (h2 : a2.IsWhole)
    (a3 : Memref sig .tc .vmem S4096 .i32) (h3 : a3.IsWhole) (a4 : Memref sig .tc .vmem S8x128 .f32) (h4 : a4.IsWhole)
    (hc : ¬cond0_0 i) (x0 : Vec F S4096x100 .f32) (x1 : Vec F S4096 .i32) (xo : Vec F S8x128 .f32) :
    out0_B_2 c i a2 h2 a3 h3 a4 h4 hc x0 x1 xo = step xo x0 x1 := by
  funext y
  unfold out0_B_2 kernelRun0_B
  dsimp only
  simp only [View.readAt_eq_ld, h2.read_unread, h3.read_unread, h4.read_unread,
    View.ld_unit_zero (S := S4096x100) zeros2, View.ld_unit_zero (S := S4096) zeros1]
  unfold step bump
  by_cases hy : (y 0).val = 0 ∧ (y 1).val = 0
  · rw [if_pos hy]
    exact View.read_writes_cons_unit_of_mem a4.view _ inb_S8x128_S1x1_0_0 _ [] y (ix2 0 0) rfl
      (fun a => match a with | ⟨0, _⟩ => hy.1 | ⟨1, _⟩ => hy.2)
  · rw [if_neg hy]
    obtain ⟨a, ha⟩ := off_corner y hy
    rw [View.read_writes_cons_unit_of_not_mem a4.view _ inb_S8x128_S1x1_0_0 _ [] y rfl a
      (Or.inr (by fin_cases a <;> exact ha))]
    rw [View.writes_nil, h4.read_unread]

/-- A point that is first in its row of the grid: the body stores the zero block, reads its corner back and writes
    the corner; the block ends at `step` of the zero block. -/
theorem after_reset (c : Dev nD) (i : grid0.Coords) (a2 : Memref sig .tc .vmem S4096x100 .f32) (h2 : a2.IsWhole)
    (a3 : Memref sig .tc .vmem S4096 .i32) (h3 : a3.IsWhole) (a4 : Memref sig .tc .vmem S8x128 .f32) (h4 : a4.IsWhole)
    (hc : cond0_0 i) (x0 : Vec F S4096x100 .f32) (x1 : Vec F S4096 .i32) :
    out0_A_2 c i a2 h2 a3 h3 a4 h4 hc x0 x1 = step (k0_pay1 (F := F)) x0 x1 := by
  funext y
  unfold out0_A_2 kernelRun0_A
  dsimp only
  sl_unfold_words
  simp only [View.readAt_eq_ld, h2.read_unread, h3.read_unread,
    View.ld_unit_zero (S := S4096x100) zeros2, View.ld_unit_zero (S := S4096) zeros1]
  rw [View.readCov_eq_canon', View.canon_unit_zero (S := S8x128) zeros2]
  unfold step bump
  by_cases hy : (y 0).val = 0 ∧ (y 1).val = 0
  · rw [if_pos hy]
    exact View.read_writes_cons_unit_of_mem VO0_2 _ inb_S8x128_S1x1_0_0 _ _ y (ix2 0 0) rfl
      (fun a => match a with | ⟨0, _⟩ => hy.1 | ⟨1, _⟩ => hy.2)
  · rw [if_neg hy]
    obtain ⟨a, ha⟩ := off_corner y hy
    rw [View.read_writes_cons_unit_of_not_mem VO0_2 _ inb_S8x128_S1x1_0_0 _ _ y rfl a
      (Or.inr (by fin_cases a <;> exact ha))]
    rw [View.read_writes_junk_apply_eq_canon, View.canon_unit_zero (S := S8x128) zeros2]

end Cert.KernelIdeal.Margin

end
-- ==== Proof.RunningBlock.lean ====
/-
  The kernel's output block after each grid point, at any float instance.

  The grid is 2 x 32, walked row by row: point n has row n / 32 and column n % 32. At column 0 the block restarts
  from the zero block; at any other column it continues from the block the point before left (the block's index
  depends on the row only, so it is not written back in between). `blockAfter` is that recursion over `step`, and
  the generated account of the staging buffer (`outsAt0`) is it, by induction on the point.
-/
import proofs.«107347_j22187801051754_2_alg».proof.Proof.BlockStep

noncomputable section

open Idealize.ShloMosaic Idealize.ShloMosaic.TcCoe Idealize.SL.Sem

namespace Cert.KernelIdeal.Margin

open Cert.KernelIdeal Cert.KernelIdeal.Gen Idealize.ShloMosaic.ValueIdx

variable {F : FTy → Type} [FloatOps F]
variable (m : (ℓ : Loc nD τ sig) → Buf (Elt F) ℓ)

/-- The output block after point `n`. -/
def blockAfter (c : Dev nD) : (n : ℕ) → n < cfg0.N → Vec F S8x128 .f32
  | 0, h => step (k0_pay1 (F := F)) (iblk m c 0 ⟨0, h⟩) (iblk m c 1 ⟨0, h⟩)
  | n + 1, h =>
    if (n + 1) % 32 = 0 then step (k0_pay1 (F := F)) (iblk m c 0 ⟨n + 1, h⟩) (iblk m c 1 ⟨n + 1, h⟩)
    else step (blockAfter c n (Nat.lt_of_succ_lt h)) (iblk m c 0 ⟨n + 1, h⟩) (iblk m c 1 ⟨n + 1, h⟩)

/-- What the staging buffer of the output holds after point `n` is `blockAfter`. -/
theorem outsAt_eq (c : Dev nD) : ∀ (n : ℕ) (h : n < cfg0.N), outsAt0 m c n h = blockAfter m c n h
  | 0, h => (outsAt0_A m c ⟨0, h⟩ rfl).trans (after_reset ..)
  | n + 1, h => by
    by_cases h0 : (n + 1) % 32 = 0
    · rw [outsAt0_A m c ⟨n + 1, h⟩ h0, after_reset]
      simp only [blockAfter, if_pos h0]
    · rw [outsAt0_B m c ⟨n + 1, h⟩ h0, after_carry]
      show step (outsAt0 m c n _) _ _ = _
      rw [outsAt_eq c n]
      simp only [blockAfter, if_neg h0]

end Cert.KernelIdeal.Margin

end
-- ==== Proof.MarginSpec.lean ====
/-
  The margin loss as one formula, and the re-groupings of its sum that the kernel performs.

  For a batch of 262144 rows of 100 class probabilities `x` and one label per row, the loss is the sum over every
  (row, class) of `term` — `max(0, 0.9 − x)²` at the row's label, `½ (x − 0.1)²` elsewhere (the constants are the f32
  values nearest 0.9, 0.1 and the exact ½) — divided by the number of rows.

  The kernel takes that sum in another grouping: the rows in 64 blocks of 4096, the blocks on a 2 x 32 grid, a
  running sum along each row of the grid that restarts at column 0, and finally the sum of a [16, 128] array that is
  zero except at two cells holding the two rows' totals. Addition on the extended reals is commutative and
  associative (also at the infinities), so every grouping gives one value: the lemmas here are stated over any
  commutative monoid and use nothing else.
-/
import Idealize.ShloMosaic.PureOps.Ideal
import Idealize.ShloMosaic.PureOps.Ideal.Laws
import Idealize.ShloMosaic.Lib.ValueIdx

noncomputable section

namespace Cert.Margin

open Idealize.ShloMosaic Idealize.ShloMosaic.ValueIdx

/-- One (row, class) term of the loss, from the row's label `t`, the class `k` and the probability `x`. -/
def term {F : FTy → Type} [FloatOps F] (t k : BitVec 32) (x : F .f32) : F .f32 :=
  Scalar.select (IntOp.cmpi .eq t k)
    (FloatOps.mulf
      (FloatOps.maximumf (FloatOps.ofBits .f32 0x00000000#32) (FloatOps.subf (FloatOps.ofBits .f32 0x3F666666#32) x))
      (FloatOps.maximumf (FloatOps.ofBits .f32 0x00000000#32) (FloatOps.subf (FloatOps.ofBits .f32 0x3F666666#32) x)))
    (FloatOps.mulf (FloatOps.ofBits .f32 0x3F000000#32)
      (FloatOps.mulf (FloatOps.subf x (FloatOps.ofBits .f32 0x3DCCCCCD#32)) (FloatOps.subf x (FloatOps.ofBits .f32 0x3DCCCCCD#32))))

/-- The loss of the whole batch: the sum of `term` over every (row, class), from 0, divided by 262144. -/
def loss (X : (⟨2, ![262144, 100]⟩ : Shape).Idx → EReal) (T : (⟨1, ![262144]⟩ : Shape).Idx → BitVec 32) : EReal :=
  FloatOps.hostDivf (F := Ideal) (φ := .f32)
    (0 + ∑ i : (⟨2, ![262144, 100]⟩ : Shape).Idx, term (F := Ideal) (T (ix1 (i 0))) (BitVec.ofNat 32 (i 1).val) (X i))
    (Ideal.ofBits .f32 0x48800000#32)

section Regroup

variable {M : Type} [AddCommMonoid M]

/-- 262144 rows are 64 blocks of 4096 rows: row `4096 n + r` is row `r` of block `n`. -/
theorem sum_rows_blocks (g : Fin 262144 → M) :
    ∑ a, g a = ∑ n : Fin 64, ∑ r : Fin 4096, g ⟨4096 * n.val + r.val, by omega⟩ := by
  rw [← Fintype.sum_equiv (finProdFinEquiv : Fin 64 × Fin 4096 ≃ Fin 262144) (fun x => g (finProdFinEquiv x)) g
    (fun _ => rfl), Fintype.sum_prod_type]
  refine Finset.sum_congr rfl fun n _ => Finset.sum_congr rfl fun r _ => congrArg g (Fin.ext ?_)
  show r.val + 4096 * n.val = 4096 * n.val + r.val
  omega

/-- 64 blocks are a 2 x 32 grid walked row by row: block `32 p + j` is at row `p`, column `j`. -/
theorem sum_blocks_grid (g : Fin 64 → M) :
    ∑ n, g n = ∑ p : Fin 2, ∑ j : Fin 32, g ⟨32 * p.val + j.val, by omega⟩ := by
  rw [← Fintype.sum_equiv (finProdFinEquiv : Fin 2 × Fin 32 ≃ Fin 64) (fun x => g (finProdFinEquiv x)) g
    (fun _ => rfl), Fintype.sum_prod_type]
  refine Finset.sum_congr rfl fun p _ => Finset.sum_congr rfl fun j _ => congrArg g (Fin.ext ?_)
  show j.val + 32 * p.val = 32 * p.val + j.val
  omega

/-- The running sum along the grid's rows: it restarts at every point whose column is 0. -/
def running (b : ℕ → M) : ℕ → M
  | 0 => b 0
  | n + 1 => if (n + 1) % 32 = 0 then b (n + 1) else running b n + b (n + 1)

theorem running_restart (b : ℕ → M) (n : ℕ) (h : n % 32 = 0) : running b n = b n := by
  cases n with
  | zero => rfl
  | succ n => simp only [running, if_pos h]

theorem running_carry (b : ℕ → M) (n : ℕ) (h : ¬(n + 1) % 32 = 0) : running b (n + 1) = running b n + b (n + 1) := by
  simp only [running, if_neg h]

/-- At column `j` of row `p` the running sum is the sum of the row's points up to column `j`. -/
theorem running_eq (b : ℕ → M) (p : ℕ) : ∀ j, j < 32 → running b (32 * p + j) = ∑ k ∈ Finset.range (j + 1), b (32 * p + k)
  | 0, _ => by
    rw [running_restart b _ (by omega)]
    simp
  | j + 1, hj => by
    rw [show 32 * p + (j + 1) = (32 * p + j) + 1 from rfl, running_carry b _ (by omega), running_eq b p j (by omega),
      Finset.sum_range_succ _ (j + 1)]
    rfl

/-- The two rows' totals, read at the rows' last points, are together the sum over all 64 points. -/
theorem running_total (bF : Fin 64 → M) :
    running (fun n => if h : n < 64 then bF ⟨n, h⟩ else 0) 31 + running (fun n => if h : n < 64 then bF ⟨n, h⟩ else 0) 63
      = ∑ n : Fin 64, bF n := by
  have e0 := running_eq (fun n => if h : n < 64 then bF ⟨n, h⟩ else 0) 0 31 (by omega)
  have e1 := running_eq (fun n => if h : n < 64 then bF ⟨n, h⟩ else 0) 1 31 (by omega)
  rw [show 32 * 0 + 31 = 31 from rfl] at e0
  rw [show 32 * 1 + 31 = 63 from rfl] at e1
  rw [e0, e1, sum_blocks_grid, Fin.sum_univ_two, Finset.sum_range, Finset.sum_range]
  refine congrArg₂ (· + ·) (Finset.sum_congr rfl fun j _ => ?_) (Finset.sum_congr rfl fun j _ => ?_)
  · have hj : 32 * 0 + j.val < 64 := by omega
    exact dif_pos hj
  · have hj : 32 * 1 + j.val < 64 := by omega
    exact dif_pos hj

/-- A [16, 128] array that is zero except at rows 0 and 8 of lane 0 sums to those two cells. -/
theorem sum_corner_cells (S : ℕ → M) :
    ∑ i : (⟨2, ![16, 128]⟩ : Shape).Idx,
        (if (i 0).val % 8 = 0 ∧ (i 1).val = 0 then S (32 * ((i 0).val / 8) + 31) else 0) = S 31 + S 63 := by
  rw [sum_idx2]
  show ∑ a : Fin 16, ∑ b : Fin 128, (if a.val % 8 = 0 ∧ b.val = 0 then S (32 * (a.val / 8) + 31) else 0) = _
  have inner : ∀ a : Fin 16, ∑ b : Fin 128, (if a.val % 8 = 0 ∧ b.val = 0 then S (32 * (a.val / 8) + 31) else 0)
      = if a.val % 8 = 0 then S (32 * (a.val / 8) + 31) else 0 := by
    intro a
    by_cases ha : a.val % 8 = 0
    · rw [if_pos ha, Finset.sum_eq_single (0 : Fin 128)]
      · exact if_pos ⟨ha, rfl⟩
      · intro b _ hb
        exact if_neg fun h => hb (Fin.ext h.2)
      · intro h
        exact absurd (Finset.mem_univ _) h
    · rw [if_neg ha]
      exact Finset.sum_eq_zero fun b _ => if_neg fun h => ha h.1
  rw [Finset.sum_congr rfl fun a _ => inner a, Fin.sum_univ_eq_sum_range (fun a => if a % 8 = 0 then S (32 * (a / 8) + 31) else 0) 16]
  simp [Finset.sum_range_succ]

end Regroup

end Cert.Margin

end
-- ==== Proof.LibColumn.lean ====
/-
  The keepdims column forms, read at an index (general lemmas: any extents, any element type).

  A per-row quantity is kept as a column: an array of `a` entries viewed as `[a, 1]`, and that column repeated along
  `b` lanes to `[a, b]`. At `(i, u)` the column reads the entry `i` (its second coordinate `u` can only be 0); at
  `(p, c)` the repeated column reads the column's row `p`, whatever the lane `c`.
-/
import Idealize.ShloMosaic.Lib.Pipeline.Value
import Idealize.ShloMosaic.Lib.ValueIdx

namespace Cert.Lib.Column

open Idealize.ShloMosaic Idealize.ShloMosaic.ValueIdx

variable {α : Type}

/-- `Cert.Lib.Column.shapeCast_a_a1_apply`: an `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- `Cert.Lib.Column.broadcastTo_a1_ab_apply`: an `[a, 1]` column broadcast to `[a, b]` reads, at `(p, c)`, the
    column's row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column
-- ==== Proof.BlockSum.lean ====
/-
  The number one grid point adds to the corner cell, over the extended reals.

  From a [4096, 100] block of probabilities and the block's 4096 labels the body forms, for every (row, class), the
  loss term (the label column repeated along the lanes and compared with the lane index chooses between the two
  squares), sums each row over its 100 classes, then sums the 4096 row sums; the result is added to the cell read
  back. A lane sum is a finite sum of extended reals, so what is stored in the corner cell is the cell plus the
  double sum of `Cert.Margin.term` over the block.
-/
import proofs.«107347_j22187801051754_2_alg».proof.Proof.Gen.KernelIdeal.Skeleton
import proofs.«107347_j22187801051754_2_alg».proof.Proof.MarginSpec
import proofs.«107347_j22187801051754_2_alg».proof.Proof.LibColumn
import Idealize.ShloMosaic.Lib.Pipeline.Value
import Idealize.ShloMosaic.Lib.ValueLayout
import Idealize.ShloMosaic.Lib.ValueIdx
import Idealize.ShloMosaic.PureOps.Ideal.Laws

noncomputable section

open Idealize.ShloMosaic Idealize.ShloMosaic.TcCoe Idealize.SL.Sem

namespace Cert.KernelIdeal.Margin

open Cert.KernelIdeal Cert.KernelIdeal.Gen Idealize.ShloMosaic.ValueIdx Cert.Margin

/-- The sum of the loss terms of one block: rows `r`, classes `k`. -/
def blockSum (x0 : FVec Ideal S4096x100 .f32) (x1 : IVec S4096 32) : EReal :=
  ∑ r : Fin 4096, ∑ k : Fin 100, term (F := Ideal) (x1 (ix1 r)) (BitVec.ofNat 32 k.val) (x0 (ix2 r k))

/-- Row `r` with class `k` put back is the index `(r, k)`; -/
theorem lift_row (r : Fin 4096) (k : Fin 100) : reduces_S4096x100_S4096.lift (ix1 r) k = ix2 r k :=
  funext fun a => Fin.ext (match a with | ⟨0, _⟩ => rfl | ⟨1, _⟩ => rfl)

/-- the one entry of the total with row `r` put back is `(r, 0)`. -/
theorem lift_col (r : Fin 4096) : reduces_S4096x1_S1.lift (ix1 (0 : Fin 1)) r = ix2 r (0 : Fin 1) :=
  funext fun a => Fin.ext (match a with | ⟨0, _⟩ => rfl | ⟨1, _⟩ => rfl)

/-- The select's operands at `(r, k)`: the label of row `r`, and the class `k` as a 32-bit word. -/
theorem label_at (x1 : IVec S4096 32) (r : Fin 4096) (k : Fin 100) :
    broadcastTo S4096x100 (shapeCast S4096x1 x1 shapeCasts_S4096_S4096x1) broadcasts_S4096x1_S4096x100 (ix2 r k) = x1 (ix1 r) :=
  (Cert.Lib.Column.broadcastTo_a1_ab_apply _ broadcasts_S4096x1_S4096x100 r k).trans
    (Cert.Lib.Column.shapeCast_a_a1_apply x1 shapeCasts_S4096_S4096x1 r 0)

theorem class_at (r : Fin 4096) (k : Fin 100) :
    iota .tc S4096x100 32 [1] iota_S4096x100_d1_w32 (ix2 r k) = BitVec.ofNat 32 k.val :=
  iota_single_apply .tc S4096x100 32 1 iota_S4096x100_d1_w32 (ix2 r k)

/-- What the body stores in the corner cell: the cell read back plus the block's sum. -/
theorem pay_corner (x0 : FVec Ideal S4096x100 .f32) (x1 : IVec S4096 32) (v24 : FVec Ideal S1x1 .f32) :
    k0_pay2 (F := Ideal) x0 x1 v24 (ix2 0 0) = v24 (ix2 0 0) + blockSum x0 x1 := by
  unfold k0_pay2 blockSum
  refine (addf_apply _ _ _).trans ?_
  refine congrArg₂ (· + ·) (congrFun (shapeCast_self v24 shapeCasts_S1x1_S1x1) _) ?_
  refine (shapeCast_a_1a_apply _ shapeCasts_S1_S1x1 0 0).trans ?_
  refine (Ideal.multiReduction_add_single _ 0x00000000#32 reduces_S4096x1_S1 (.inl rfl) rfl (ix1 0)).trans ?_
  refine Finset.sum_congr rfl fun (r : Fin 4096) _ => ?_
  refine (congrArg _ (lift_col r)).trans ?_
  refine (Cert.Lib.Column.shapeCast_a_a1_apply _ shapeCasts_S4096_S4096x1 r 0).trans ?_
  refine (Ideal.multiReduction_add_single _ 0x00000000#32 reduces_S4096x100_S4096 (.inl rfl) rfl (ix1 r)).trans ?_
  refine Finset.sum_congr rfl fun (k : Fin 100) _ => ?_
  refine (congrArg _ (lift_row r k)).trans ?_
  show Scalar.select (IntOp.cmpi .eq
      (broadcastTo S4096x100 (shapeCast S4096x1 x1 shapeCasts_S4096_S4096x1) broadcasts_S4096x1_S4096x100 (ix2 r k))
      (iota .tc S4096x100 32 [1] iota_S4096x100_d1_w32 (ix2 r k))) _ _ = _
  rw [label_at, class_at]
  rfl

end Cert.KernelIdeal.Margin

end
-- ==== Proof.CornerSum.lean ====
/-
  The kernel's result array, over the extended reals.

  Read at the extended reals the zero block is 0 everywhere and a step adds the point's block sum to the corner cell,
  so after point n the output block is 0 except at its corner, which holds the running sum of the block sums along
  the point's row of the grid (`Cert.Margin.running`). The block is written back once per row, after the row's last
  point (column 31), to rows 8p .. 8p+7 of the [16, 128] result array; the two write-backs cover the array. So the
  array ends 0 except at (0, 0) and (8, 0), which hold the two rows' totals.
-/
import proofs.«107347_j22187801051754_2_alg».proof.Proof.RunningBlock
import proofs.«107347_j22187801051754_2_alg».proof.Proof.BlockSum
import proofs.«107347_j22187801051754_2_alg».proof.Proof.MarginSpec
import Idealize.ShloMosaic.Lib.Pipeline.Value

noncomputable section

open Idealize.ShloMosaic Idealize.ShloMosaic.TcCoe Idealize.SL.Sem

open Idealize.ShloMosaic.Pipeline (Dat)

namespace Cert.KernelIdeal.Margin

open Cert.KernelIdeal Cert.KernelIdeal.Gen Idealize.ShloMosaic.ValueIdx Cert.Margin

variable (m : (ℓ : Loc nD τ sig) → Buf (Elt Ideal) ℓ)

/-- The block that holds `s` at its corner and 0 elsewhere. -/
def cornerOnly (s : EReal) : Vec Ideal S8x128 .f32 := fun y => if (y 0).val = 0 ∧ (y 1).val = 0 then s else 0

/-- The zero block is 0 everywhere. -/
theorem zero_block : k0_pay1 (F := Ideal) = cornerOnly 0 := by
  funext y
  unfold cornerOnly
  rw [ite_self]
  exact Ideal.ofBits_zero_f32

/-- A step adds the point's block sum to the corner and keeps the zeros. -/
theorem step_cornerOnly (s : EReal) (x0 : FVec Ideal S4096x100 .f32) (x1 : IVec S4096 32) :
    step (F := Ideal) (cornerOnly s) x0 x1 = cornerOnly (s + blockSum x0 x1) := by
  funext y
  unfold step bump
  by_cases hy : (y 0).val = 0 ∧ (y 1).val = 0
  · have hc : View.ld (cornerOnly s) corner (ix2 0 0) = s := if_pos ⟨rfl, rfl⟩
    rw [if_pos hy]
    refine (pay_corner _ _ _).trans ?_
    rw [hc]
    exact (if_pos hy).symm
  · rw [if_neg hy]
    exact (if_neg hy).trans (if_neg hy).symm

/-- Grid point `k` of 64. -/
def pt (k : Fin 64) : Fin cfg0.N := ⟨k.val, lt_of_lt_of_eq k.isLt (show (64 : ℕ) = cfg0.N from N_0.symm)⟩

/-- The block sum of point `k`'s input blocks, -/
def ptSumF (c : Dev nD) (k : Fin 64) : EReal := blockSum (iblk m c 0 (pt k)) (iblk m c 1 (pt k))

/-- and the same as a function of the natural number (0 past the grid). -/
def ptSum (c : Dev nD) (n : ℕ) : EReal := if h : n < 64 then ptSumF m c ⟨n, h⟩ else 0

theorem ptSum_lt (c : Dev nD) (n : ℕ) (h : n < cfg0.N) :
    ptSum m c n = blockSum (iblk m c 0 ⟨n, h⟩) (iblk m c 1 ⟨n, h⟩) := by
  unfold ptSum
  rw [dif_pos (lt_of_lt_of_eq h (show cfg0.N = 64 from N_0))]
  rfl

/-- After point `n` the block is 0 except at its corner, which holds the running sum of its row. -/
theorem blockAfter_eq (c : Dev nD) : ∀ (n : ℕ) (h : n < cfg0.N), blockAfter m c n h = cornerOnly (running (ptSum m c) n)
  | 0, h => by
    simp only [blockAfter]
    rw [zero_block, step_cornerOnly, zero_add]
    exact congrArg cornerOnly (ptSum_lt m c 0 h).symm
  | n + 1, h => by
    by_cases h0 : (n + 1) % 32 = 0
    · simp only [blockAfter, if_pos h0]
      rw [zero_block, step_cornerOnly, zero_add, running_restart _ _ h0, ptSum_lt m c (n + 1) h]
    · simp only [blockAfter, if_neg h0]
      rw [blockAfter_eq c n, step_cornerOnly, running_carry _ _ h0, ptSum_lt m c (n + 1) h]

/-- The result array: 0 except at rows 0 and 8 of lane 0, which hold the totals of grid rows 0 and 1. -/
def finalArr (c : Dev nD) : S16x128.Idx → EReal := fun i =>
  if (i 0).val % 8 = 0 ∧ (i 1).val = 0 then running (ptSum m c) (32 * ((i 0).val / 8) + 31) else 0

/-- The output's block index at point `t`: the grid row on the row axis, 0 on the lane axis. -/
theorem idx_out : ∀ t : Fin cfg0.N, win0_2.index t (0 : Fin 2) = t.val / 32 ∧ win0_2.index t (1 : Fin 2) = 0 :=
  (by decide +kernel : ∀ t : Fin grid0.N, win0_2.index t (0 : Fin 2) = t.val / 32 ∧ win0_2.index t (1 : Fin 2) = 0)

/-- What a flushing point (column 31) writes back is its block of `finalArr`. -/
theorem flushed_eq (c : Dev nD) (t : Fin cfg0.N) (hf : (cfg0.win 2).flush t = true) :
    (dats m 0 c).flushed 2 t = ((cfg0.win 2).blk t).view.read (Elt Ideal) (finalArr m c) := by
  have h31 : t.val % 32 = 31 := (flush0_2 t).mp hf
  obtain ⟨e0, e1⟩ := idx_out t
  show (cfg0.win 2).cut (grid0.coords t) ((dats m 0 c).after 2 t) = _
  rw [after0_2, outsAt_eq, blockAfter_eq]
  funext y
  have hy0 : (y 0).val < 8 := (y 0).isLt
  have key : ((cfg0.win 2).blk t).view.read (Elt Ideal) (finalArr m c) y
      = if (win0_2.index t (0 : Fin 2) * 8 + 1 * (y 0).val) % 8 = 0 ∧ win0_2.index t (1 : Fin 2) * 128 + 1 * (y 1).val = 0
        then running (ptSum m c) (32 * ((win0_2.index t (0 : Fin 2) * 8 + 1 * (y 0).val) / 8) + 31) else 0 := rfl
  rw [key, e0, e1]
  show (if (y 0).val = 0 ∧ (y 1).val = 0 then running (ptSum m c) t.val else (0 : EReal)) = _
  by_cases hy : (y 0).val = 0 ∧ (y 1).val = 0
  · rw [if_pos hy, if_pos (by omega)]
    exact congrArg (running (ptSum m c)) (by omega)
  · rw [if_neg hy, if_neg (by omega)]

/-- Every index of the result array is in the block some flushing point writes. -/
theorem covered (i : S16x128.Idx) :
    ∃ t : Fin cfg0.N, (cfg0.win 2).flush t = true ∧ i ∈ ((cfg0.win 2).blk t).view.set := by
  have hi0 : (i 0).val < 16 := (i 0).isLt
  have hi1 : (i 1).val < 128 := (i 1).isLt
  have hN : 32 * ((i 0).val / 8) + 31 < cfg0.N := by rw [show cfg0.N = 64 from N_0]; omega
  obtain ⟨e0, e1⟩ := idx_out ⟨32 * ((i 0).val / 8) + 31, hN⟩
  have e0' : win0_2.index ⟨32 * ((i 0).val / 8) + 31, hN⟩ (0 : Fin 2) = (32 * ((i 0).val / 8) + 31) / 32 := e0
  refine ⟨⟨32 * ((i 0).val / 8) + 31, hN⟩, (flush0_2 _).mpr (by show (32 * ((i 0).val / 8) + 31) % 32 = 31; omega), ?_⟩
  show i ∈ ((View.whole main_v0).slice (win0_2.rect ⟨32 * ((i 0).val / 8) + 31, hN⟩)).set
  rw [View.set_slice_whole, Rect.mem_set_unit]
  intro a
  match a with
  | ⟨0, _⟩ =>
    show win0_2.index ⟨32 * ((i 0).val / 8) + 31, hN⟩ (0 : Fin 2) * 8 ≤ (i 0).val
      ∧ (i 0).val < win0_2.index ⟨32 * ((i 0).val / 8) + 31, hN⟩ (0 : Fin 2) * 8 + 8
    rw [e0']
    omega
  | ⟨1, _⟩ =>
    show win0_2.index ⟨32 * ((i 0).val / 8) + 31, hN⟩ (1 : Fin 2) * 128 ≤ (i 1).val
      ∧ (i 1).val < win0_2.index ⟨32 * ((i 0).val / 8) + 31, hN⟩ (1 : Fin 2) * 128 + 128
    rw [e1]
    omega

/-- The result array after the run. -/
theorem final (c : Dev nD) : (dats m 0 c).arrAt 2 cfg0.N = finalArr m c :=
  (dats m 0 c).arrAt_eq_of_cover 2 (finalArr m c) (flushed_eq m c) covered

end Cert.KernelIdeal.Margin

end
-- ==== Proof.KernelLoss.lean ====
/-
  The kernel computes `Cert.Margin.loss`.

  Point n = 32 p + j of the grid is handed rows 4096 n .. 4096 n + 4095 of the probabilities and of the labels, so
  its block sum is the sum of the loss terms of those rows. The result array's two nonzero cells are the totals of
  the grid's two rows; the program's last lines sum the array from 0 and divide by 262144. Summing the 64 block sums
  is summing over all 262144 rows (`Cert.Margin.sum_rows_blocks`), so the result is `loss` of the two argument arrays.
-/
import proofs.«107347_j22187801051754_2_alg».proof.Proof.CornerSum
import Idealize.ShloMosaic.Lib.Pipeline.Value
import Idealize.ShloMosaic.Lib.StableHlo.Run
import Idealize.ShloMosaic.PureOps.Ideal.Laws

noncomputable section

open Idealize.ShloMosaic Idealize.ShloMosaic.TcCoe Idealize.SL.Sem

open Idealize.ShloMosaic.Pipeline (Dat)

namespace Cert.KernelIdeal.Margin

open Cert.KernelIdeal Cert.KernelIdeal.Gen Idealize.ShloMosaic.ValueIdx Cert.Margin Idealize.ShloMosaic.StableHlo

variable (m : (ℓ : Loc nD τ sig) → Buf (Elt Ideal) ℓ) (ρ : Dev nD → PrngReg)

theorem idx_in : ∀ t : Fin cfg0.N, win0_0.index t (0 : Fin 2) = t.val ∧ win0_0.index t (1 : Fin 2) = 0
    ∧ win0_1.index t (0 : Fin 1) = t.val :=
  (by decide +kernel : ∀ t : Fin grid0.N, win0_0.index t (0 : Fin 2) = t.val ∧ win0_0.index t (1 : Fin 2) = 0
    ∧ win0_1.index t (0 : Fin 1) = t.val)

theorem iblk_probs (c : Dev nD) (n : Fin 64) (r : Fin 4096) (k : Fin 100) :
    (iblk m c 0 (pt n) : FVec Ideal S4096x100 .f32) (ix2 r k)
      = (m ((c : Thread nD τ).loc main_arg0) : S262144x100.Idx → EReal) (ix2 ⟨4096 * n.val + r.val, by omega⟩ k) := by
  obtain ⟨e0, e1, -⟩ := idx_in (pt n)
  unfold iblk
  rw [View.read_apply]
  show V m c main_arg0 _ = V m c main_arg0 _
  congr 1
  funext a
  apply Fin.ext
  match a with
  | ⟨0, _⟩ =>
    show win0_0.index (pt n) (0 : Fin 2) * 4096 + 1 * r.val = 4096 * n.val + r.val
    rw [e0]
    show n.val * 4096 + 1 * r.val = 4096 * n.val + r.val
    omega
  | ⟨1, _⟩ =>
    show win0_0.index (pt n) (1 : Fin 2) * 100 + 1 * k.val = k.val
    rw [e1]
    omega

theorem iblk_labels (c : Dev nD) (n : Fin 64) (r : Fin 4096) :
    (iblk m c 1 (pt n) : IVec S4096 32) (ix1 r)
      = (m ((c : Thread nD τ).loc main_arg1) : S262144.Idx → BitVec 32) (ix1 ⟨4096 * n.val + r.val, by omega⟩) := by
  obtain ⟨-, -, e2⟩ := idx_in (pt n)
  unfold iblk
  rw [View.read_apply]
  show V m c main_arg1 _ = V m c main_arg1 _
  congr 1
  funext a
  apply Fin.ext
  match a with
  | ⟨0, _⟩ =>
    show win0_1.index (pt n) (0 : Fin 1) * 4096 + 1 * r.val = 4096 * n.val + r.val
    rw [e2]
    show n.val * 4096 + 1 * r.val = 4096 * n.val + r.val
    omega

/-- The probabilities and the labels the program is run on. -/
abbrev probs (c : Dev nD) : (⟨2, ![262144, 100]⟩ : Shape).Idx → EReal := m ((c : Thread nD τ).loc main_arg0)
abbrev labels (c : Dev nD) : (⟨1, ![262144]⟩ : Shape).Idx → BitVec 32 := m ((c : Thread nD τ).loc main_arg1)

/-- Point `n`'s block sum is the sum of the loss terms of rows `4096 n + r`. -/
theorem ptSumF_eq (c : Dev nD) (n : Fin 64) :
    ptSumF m c n = ∑ r : Fin 4096, ∑ k : Fin 100,
      term (F := Ideal) (labels m c (ix1 ⟨4096 * n.val + r.val, by omega⟩)) (BitVec.ofNat 32 k.val)
        (probs m c (ix2 ⟨4096 * n.val + r.val, by omega⟩ k)) := by
  unfold ptSumF blockSum
  refine Finset.sum_congr rfl fun r _ => Finset.sum_congr rfl fun k _ => ?_
  rw [iblk_probs, iblk_labels]

/-- The total of the result array is the sum of the loss terms over every (row, class). -/
theorem sum_final (c : Dev nD) :
    ∑ j : S16x128.Idx, finalArr m c j
      = ∑ i : (⟨2, ![262144, 100]⟩ : Shape).Idx,
          term (F := Ideal) (labels m c (ix1 (i 0))) (BitVec.ofNat 32 (i 1).val) (probs m c i) :=
  calc ∑ j : S16x128.Idx, finalArr m c j
      = running (ptSum m c) 31 + running (ptSum m c) 63 := sum_corner_cells (fun n => running (ptSum m c) n)
    _ = ∑ n : Fin 64, ptSumF m c n := running_total (ptSumF m c)
    _ = ∑ n : Fin 64, ∑ r : Fin 4096, ∑ k : Fin 100,
          term (F := Ideal) (labels m c (ix1 ⟨4096 * n.val + r.val, by omega⟩)) (BitVec.ofNat 32 k.val)
            (probs m c (ix2 ⟨4096 * n.val + r.val, by omega⟩ k)) := Finset.sum_congr rfl fun n _ => ptSumF_eq m c n
    _ = ∑ a : Fin 262144, ∑ k : Fin 100,
          term (F := Ideal) (labels m c (ix1 a)) (BitVec.ofNat 32 k.val) (probs m c (ix2 a k)) :=
        (sum_rows_blocks fun a : Fin 262144 => ∑ k : Fin 100,
          term (F := Ideal) (labels m c (ix1 a)) (BitVec.ofNat 32 k.val) (probs m c (ix2 a k))).symm
    _ = ∑ i : (⟨2, ![262144, 100]⟩ : Shape).Idx,
          term (F := Ideal) (labels m c (ix1 (i 0))) (BitVec.ofNat 32 (i 1).val) (probs m c i) :=
        (sum_idx2 fun i : (⟨2, ![262144, 100]⟩ : Shape).Idx =>
          term (F := Ideal) (labels m c (ix1 (i 0))) (BitVec.ofNat 32 (i 1).val) (probs m c i)).symm

/-- The program's last lines — the array summed from 0, divided by 262144 — leave the loss. -/
theorem tail_eq (c : Dev nD) :
    Pipeline.afterTail₀ cfgs (dats m) 0 (V0 m) [hostOps1] c main_v2
      = (fun _ => loss (probs m c) (labels m c) : S_.Idx → EReal) := by
  unfold Pipeline.afterTail₀
  show StableHlo.after hostOps1 _ (Proc.devRef .tc main_v2) = _
  after_results
  rw [show Pipeline.withArrays (cfgs 0).spec c (V0 m c) (fun w => (dats m 0 c).arrAt w (cfgs 0).N) (Proc.tc.devRef main_v0)
      = finalArr m c from (Pipeline.withArrays_arr spec0 launch0.win.arr_inj c _ _ 2).trans (final m c)]
  funext i
  have hsum : Host.reduceAdd (F := Ideal) (finalArr m c) (constant (F := Ideal) S_ .f32 0x00000000#32) reducesTo_S16x128_S_d0_1 h_S_ i
      = Ideal.ofBits .f32 0x00000000#32 + ∑ j : S16x128.Idx, finalArr m c j := by
    simp only [Host.reduceAdd, Ideal.hostReduceAdd_def]
    exact Ideal.hostReduceAdd_total reducesTo_S16x128_S_d0_1 (fun b => b.elim0) (finalArr m c) _ i
  show FloatOps.hostDivf (Host.reduceAdd (F := Ideal) (finalArr m c) (constant (F := Ideal) S_ .f32 0x00000000#32) reducesTo_S16x128_S_d0_1 h_S_ i)
    (Ideal.ofBits .f32 0x48800000#32) = _
  rw [hsum, Ideal.ofBits_zero_f32, sum_final]
  rfl

/-- The kernel's run, read: its result is the loss of its arguments, which it leaves unchanged. -/
theorem run : θ_run defs (onTc (τ := τ) (main (F := Ideal))) ⟨m, fun _ => 0, ρ⟩ fun r => ∀ c : Dev nD,
      r.2.mem ((c : Thread nD τ).loc main_v2) = (fun _ => loss (probs m c) (labels m c) : S_.Idx → EReal)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v2 (Pipeline.mem_restRefs_of main_v2 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Margin

end
-- ==== Proof.RefLoss.lean ====
/-
  The reference computes `Cert.Margin.loss`.

  Its program broadcasts the label column along the classes and the class indices along the rows, compares, forms the
  two squares, selects, sums every entry from 0 and divides by 262144. Read one operation at a time at an index, the
  selected entry at (row, class) is `term` of that row's label, that class and that probability, so the result is
  `loss` of the two argument arrays.
-/
import proofs.«107347_j22187801051754_2_alg».proof.Proof.Gen.ReferenceIdeal.Read
import proofs.«107347_j22187801051754_2_alg».proof.Proof.MarginSpec
import Idealize.ShloMosaic.Lib.ValueIdx
import Idealize.ShloMosaic.PureOps.Ideal.Laws

noncomputable section

open Idealize.ShloMosaic Idealize.ShloMosaic.TcCoe Idealize.SL.Sem

namespace Cert.ReferenceIdeal.RefLoss

open Cert.ReferenceIdeal Cert.ReferenceIdeal.Gen Cert.ReferenceIdeal.Read Idealize.ShloMosaic.ValueIdx Cert.Margin

/-- The label the comparison reads at (row, class) is the row's. -/
theorem label_idx (j : S262144x100.Idx) : idx_main_v0 (idx_main_v3 j) = ix1 (j 0) :=
  funext fun a => Fin.ext (by match a with | ⟨0, _⟩ => rfl)

/-- The selected entry at (row, class) is the loss term there. -/
theorem selected_apply (X : (⟨S262144x100, .f32⟩ : BufTy).Contents (Elt Ideal)) (T : (⟨S262144, .i32⟩ : BufTy).Contents (Elt Ideal))
    (j : S262144x100.Idx) :
    val_main_v16 (F := Ideal) X T j = term (F := Ideal) (T (ix1 (j 0))) (BitVec.ofNat 32 (j 1).val) (X j) := by
  rw [val_main_v16_apply, val_main_v5_apply, val_main_v3_apply, val_main_v0_apply, val_main_v4_apply, val_main_v2_apply,
    val_main_v1_apply, val_main_v10_apply, val_main_v9_apply, val_main_v8_apply, val_main_cst_0_apply, val_main_v7_apply,
    val_main_v6_apply, val_main_cst_apply, val_main_v15_apply, val_main_v14_apply, val_main_cst_2_apply, val_main_v13_apply,
    val_main_v12_apply, val_main_v11_apply, val_main_cst_1_apply, label_idx]
  rfl

/-- The reference's result is the loss of its arguments. -/
theorem result_eq (X : (⟨S262144x100, .f32⟩ : BufTy).Contents (Elt Ideal)) (T : (⟨S262144, .i32⟩ : BufTy).Contents (Elt Ideal)) :
    val_main_v18 (F := Ideal) X T = fun _ => loss X T := by
  funext i
  rw [val_main_v18_apply, val_main_v17_apply, val_main_cst_3_apply, val_main_cst_4_apply]
  unfold loss
  refine congrArg₂ _ (congrArg₂ (· + ·) Ideal.ofBits_zero_f32 (Finset.sum_congr rfl fun j _ => selected_apply X T j)) rfl

end Cert.ReferenceIdeal.RefLoss

end
-- ==== Proof.lean ====
/-
  The margin loss kernel against its jnp reference, over the extended reals.

  Both programs take 262144 rows of 100 class probabilities `x` and one label per row, and return
  (sum over every (row, class) of the term) / 262144, where the term is `max(0, 0.9 − x)²` at the row's label and
  `½ (x − 0.1)²` at every other class (`Cert.Margin.term`, `Cert.Margin.loss`; 0.9 and 0.1 are the same f32 words in
  both programs).

  The reference sums all 26214400 terms at once. The kernel walks a 2 x 32 grid of 64 blocks of 4096 rows: at each
  point it sums the block's terms row by row and adds the block's sum into one cell of an [8, 128] block that it
  zeroes at the start of each row of the grid; the two rows' blocks make a [16, 128] array whose only nonzero cells
  are the two rows' totals, and the last lines sum that array and divide. The two results differ only in the
  grouping of one finite sum, and addition of extended reals is commutative and associative, so they are equal; the
  inputs' finiteness is never used.

  The three frames are the generated ones (the reference's is its generated run with the result dropped); the
  idealization rewrote nothing, so `preserves` is trivial.
-/
import proofs.«107347_j22187801051754_2_alg».proof.Defs
import proofs.«107347_j22187801051754_2_alg».proof.Proof.Gen.Kernel
import proofs.«107347_j22187801051754_2_alg».proof.Proof.Gen.Kernel.Skeleton
import proofs.«107347_j22187801051754_2_alg».proof.Proof.Gen.Kernel.Launch
import proofs.«107347_j22187801051754_2_alg».proof.Proof.Gen.Kernel.Points
import proofs.«107347_j22187801051754_2_alg».proof.Proof.Gen.Kernel.Frame
import proofs.«107347_j22187801051754_2_alg».proof.Proof.Gen.KernelIdeal
import proofs.«107347_j22187801051754_2_alg».proof.Proof.Gen.KernelIdeal.Skeleton
import proofs.«107347_j22187801051754_2_alg».proof.Proof.Gen.KernelIdeal.Launch
import proofs.«107347_j22187801051754_2_alg».proof.Proof.Gen.KernelIdeal.Points
import proofs.«107347_j22187801051754_2_alg».proof.Proof.Gen.KernelIdeal.Frame
import proofs.«107347_j22187801051754_2_alg».proof.Proof.Gen.ReferenceIdeal
import proofs.«107347_j22187801051754_2_alg».proof.Proof.Gen.ReferenceIdeal.Run
import proofs.«107347_j22187801051754_2_alg».proof.Proof.Gen.ReferenceIdeal.Read
import proofs.«107347_j22187801051754_2_alg».proof.Proof.Gen.Pre_finite_inputs
import proofs.«107347_j22187801051754_2_alg».proof.Proof.KernelLoss
import proofs.«107347_j22187801051754_2_alg».proof.Proof.RefLoss
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Run from memories that agree on the arguments, both programs end with the loss of those arguments. -/
theorem algebraic : Cert.algebraic_KernelIdeal_ReferenceIdeal := by
  intro m ρ m' ρ' _ hagree
  refine ⟨fun c => (fun _ => Cert.Margin.loss (Cert.KernelIdeal.Margin.probs m c) (Cert.KernelIdeal.Margin.labels m c)),
    Cert.KernelIdeal.Margin.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefLoss.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
